-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16384 : Shape := ⟨2, ![4096, 16384]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S4096x16384 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S4096x16384 : Shape := ⟨2, ![4096, 16384]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S2048x1024 : Shape := ⟨2, ![2048, 1024]⟩
abbrev S1024x1024 : Shape := ⟨2, ![1024, 1024]⟩
abbrev S1x1024 : Shape := ⟨2, ![1, 1024]⟩
abbrev S4x2048x16384 : Shape := ⟨3, ![4, 2048, 16384]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S4096x16384, .bf16⟩
  | .hbm, ⟨7, _⟩ => ⟨S1x16384, .f32⟩
  | .hbm, ⟨8, _⟩ => ⟨S1x16384, .f32⟩
  | .hbm, ⟨9, _⟩ => ⟨S8192x16384, .f32⟩
  | .hbm, ⟨10, _⟩ => ⟨S4x2048x16384, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x16384_S4x2048x16384 : S8192x16384.ShapeCasts S4x2048x16384
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .bf16 = 32 ∨ (Rect.block (s := S4096x16384) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x16384.size a
  hwx0_4 : ∀ i : grid0.Coords, EltTy.bits .f32 = 32 ∨ (Rect.block (s := S8192x16384) S2048x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x16384 : Shape := ⟨2, ![4096, 16384]⟩
abbrev S16384 : Shape := ⟨1, ![16384]⟩
abbrev S1x16384 : Shape := ⟨2, ![1, 16384]⟩
abbrev S4x2048x16384 : Shape := ⟨3, ![4, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .i32⟩
  | .hbm, ⟨2, _⟩ => ⟨S16384, .f32⟩
  | .hbm, ⟨3, _⟩ => ⟨S16384, .f32⟩
  | .hbm, ⟨4, _⟩ => ⟨S4096x16384, .f32⟩
  | .hbm, ⟨5, _⟩ => ⟨S1x16384, .f32⟩
  | .hbm, ⟨6, _⟩ => ⟨S4096x16384, .f32⟩
  | .hbm, ⟨7, _⟩ => ⟨S4096x16384, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S4096x16384_S4x2048x16384_2_0_01_1_n_n_wf : DotDims.WF S4x2048x4096 S4096x16384 S4x2048x16384 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf

class Facts : Prop extends Facts₀ where

variable [Facts]
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.Dequant.lean ====
/-
  A matrix product whose right operand is an integer matrix rescaled column by column, plus a shift per column:
      out[b, s, o] = (Σ_k x[b, s, k] · (w[k, o] · scale[o])) + bias[o].
  This module states that function of the four argument arrays, and the law that joins it with the same product
  accumulated tile by tile over the contracted axis (four tiles of 1024 terms, added to a zero in order), rescaled
  only afterwards:
      (0 + Σ_{t<4} Σ_{j<1024} x_{1024t+j} · w_{1024t+j}) · scale + bias = (Σ_{k<4096} x_k · (w_k · scale)) + bias.
  Regrouping the sum into tiles holds on all extended reals; moving the factor `scale` inside the sum is
  distributivity, which holds when the terms and the factor are finite.  Arrays are read at natural-number
  coordinates (zero outside the array) so that a block's offset is plain arithmetic.
-/
import proofs.«178539_j71760313582388_2_alg».proof.Proof.LibERealStats
import Idealize.ShloMosaic.Lib.ValueIdx

noncomputable section

open scoped BigOperators

namespace Cert.Dequant

open Idealize.ShloMosaic Idealize.ShloMosaic.ValueIdx Cert.LibERealStats

/-! ## The specification -/

abbrev SX : Shape := ⟨3, ![4, 2048, 4096]⟩
abbrev SW : Shape := ⟨2, ![4096, 16384]⟩
abbrev SV : Shape := ⟨1, ![16384]⟩
abbrev SO : Shape := ⟨3, ![4, 2048, 16384]⟩

/-- The integer weight as a real number. -/
def wreal (v : BitVec 32) : EReal := ((v.toInt : ℝ) : EReal)

theorem wreal_isReal (v : BitVec 32) : IsReal (wreal v) := ⟨_, rfl⟩

/-- The result: entry (b, s, o) is the sum over k of x[b, s, k] · (w[k, o] · scale[o]), plus bias[o]. -/
def G3 (x : SX.Idx → EReal) (w : SW.Idx → BitVec 32) (sc bi : SV.Idx → EReal) : SO.Idx → EReal :=
  fun i => (∑ k : Fin 4096, x (ix3 (i 0 : Fin 4) (i 1 : Fin 2048) k)
      * (wreal (w (ix2 k (i 2 : Fin 16384))) * sc (ix1 (i 2 : Fin 16384)))) + bi (ix1 (i 2 : Fin 16384))

/-! ## Arrays at natural coordinates -/

/-- A rank-2 array read at natural coordinates, zero outside. -/
def nat2 {a b : ℕ} (A : (⟨2, ![a, b]⟩ : Shape).Idx → EReal) (r k : ℕ) : EReal :=
  if h : r < a ∧ k < b then A (ix2 ⟨r, h.1⟩ ⟨k, h.2⟩) else 0

theorem nat2_of_lt {a b : ℕ} (A : (⟨2, ![a, b]⟩ : Shape).Idx → EReal) {r k : ℕ} (hr : r < a) (hk : k < b) :
    nat2 A r k = A (ix2 ⟨r, hr⟩ ⟨k, hk⟩) := dif_pos ⟨hr, hk⟩

theorem nat2_isReal {a b : ℕ} (A : (⟨2, ![a, b]⟩ : Shape).Idx → EReal) (h : ∀ i, IsReal (A i)) (r k : ℕ) :
    IsReal (nat2 A r k) := by
  unfold nat2; split
  · exact h _
  · exact IsReal.zero

/-! ## The tiled product and the law -/

/-- Tile `t` of the contracted axis at entry (r, o): the 1024 products at k = 1024 t + j. -/
def tile (X W : ℕ → ℕ → EReal) (r o t : ℕ) : EReal :=
  ∑ j : Fin 1024, X r (t * 1024 + j.val) * W (t * 1024 + j.val) o

/-- The first `n` tiles added to a zero. -/
def partialAcc (X W : ℕ → ℕ → EReal) (r o n : ℕ) : EReal := 0 + ∑ t ∈ Finset.range n, tile X W r o t

/-- The product accumulated over the four tiles, then rescaled by the column's scale and shifted by its bias. -/
def tiled (X W : ℕ → ℕ → EReal) (S B : ℕ → EReal) (r o : ℕ) : EReal := partialAcc X W r o 4 * S o + B o

theorem partialAcc_succ (X W : ℕ → ℕ → EReal) (r o n : ℕ) :
    partialAcc X W r o (n + 1) = partialAcc X W r o n + tile X W r o n := by
  unfold partialAcc; rw [Finset.sum_range_succ, add_assoc]

theorem partialAcc_one (X W : ℕ → ℕ → EReal) (r o : ℕ) : partialAcc X W r o 1 = 0 + tile X W r o 0 := by
  unfold partialAcc; rw [Finset.sum_range_one]

/-- A finite factor moves inside a finite sum of finite terms. -/
theorem sum_mul_of_isReal {ι : Type*} (s : Finset ι) (f : ι → EReal) (c : EReal) (hf : ∀ i ∈ s, IsReal (f i))
    (hc : IsReal c) : (∑ i ∈ s, f i) * c = ∑ i ∈ s, f i * c := by
  obtain ⟨c', rfl⟩ := hc
  have hf' : ∀ i ∈ s, ∃ r : ℝ, f i = (r : EReal) := hf
  choose! g hg using hf'
  rw [sum_eq_coe_sum s f g hg, ← EReal.coe_mul, Finset.sum_mul, coe_sum]
  refine Finset.sum_congr rfl fun i hi => ?_
  rw [EReal.coe_mul, hg i hi]

/-- The four tiles are the whole contracted range. -/
theorem partialAcc_four (X W : ℕ → ℕ → EReal) (r o : ℕ) :
    partialAcc X W r o 4 = ∑ k : Fin 4096, X r k.val * W k.val o := by
  unfold partialAcc tile
  rw [zero_add, Finset.sum_range (fun t => ∑ j : Fin 1024, X r (t * 1024 + j.val) * W (t * 1024 + j.val) o)]
  exact sum_tiles_of_eq 4 1024 4096 rfl (fun k => X r k * W k o)

/-- THE LAW: accumulated tile by tile and rescaled afterwards, or summed against the rescaled right operand. -/
theorem tiled_eq (X W : ℕ → ℕ → EReal) (S B : ℕ → EReal) (r o : ℕ) (hX : ∀ k, IsReal (X r k))
    (hW : ∀ k, IsReal (W k o)) (hS : IsReal (S o)) :
    tiled X W S B r o = (∑ k : Fin 4096, X r k.val * (W k.val o * S o)) + B o := by
  unfold tiled
  rw [partialAcc_four, sum_mul_of_isReal _ _ _ (fun k _ => (hX k.val).mul (hW k.val)) hS]
  exact congrArg (· + B o) (Finset.sum_congr rfl fun k _ => mul_assoc _ _ _)

end Cert.Dequant

end
-- ==== Proof.Pieces.lean ====
/-
  What each control case of the kernel body leaves in the output tile's buffer, as a value.
  At the first tile of the contracted axis the body stores a zero tile, reads it back and adds the product of the
  left and right tiles; at a middle tile it adds the product to what the tile held; at the last tile it adds the
  product and then rescales the tile by the scale row and adds the bias row.  Each case ends with one store that
  covers the whole tile, so the tile holds that store's value; a load of a buffer the body has just covered reads
  the covering store's value.
-/
import proofs.«178539_j71760313582388_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A middle tile: the buffer holding `xo4` ends at `xo4 + x0 · x1`. -/
theorem out_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (hc0 : ¬cond0_0 i) (hc1 : ¬cond0_1 i) (x0 : Vec F S2048x1024 .bf16) (x1 : Vec F S1024x1024 .bf16) (x2 : Vec F S1x1024 .f32) (x3 : Vec F S1x1024 .f32) (xo4 : Vec F S2048x1024 .f32) :
    out0_B_4 c i arg3 harg3 arg4 harg4 arg5 harg5 arg6 harg6 arg7 harg7 hc0 hc1 x0 x1 x2 x3 xo4 = k0_pay2 xo4 x0 x1 := by
  unfold out0_B_4
  rw [View.read_writes_eq_canon _ _ _ (cover0_B_4 c i arg3 harg3 arg4 harg4 arg5 harg5 arg6 harg6 arg7 harg7 hc0 hc1 x0 x1 x2 x3 xo4)]
  unfold kernelRun0_B
  dsimp only
  rw [View.canon_unit_zero hz]
  simp only [View.readAt_eq_ld, harg3.read_unread, harg4.read_unread, harg7.read_unread,
    View.ld_unit_zero (S := S2048x1024) hz, View.ld_unit_zero (S := S1024x1024) hz]

/-- The first tile: the buffer ends at `zero tile + x0 · x1`. -/
theorem out_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (hc0 : cond0_0 i) (hc1 : ¬cond0_1 i) (x0 : Vec F S2048x1024 .bf16) (x1 : Vec F S1024x1024 .bf16) (x2 : Vec F S1x1024 .f32) (x3 : Vec F S1x1024 .f32) :
    out0_A_4 c i arg3 harg3 arg4 harg4 arg5 harg5 arg6 harg6 arg7 harg7 hc0 hc1 x0 x1 x2 x3 = k0_pay2 (k0_pay1 (F := F)) x0 x1 := by
  unfold out0_A_4
  rw [View.read_writes_eq_canon _ _ _ (cover0_A_4 c i arg3 harg3 arg4 harg4 arg5 harg5 arg6 harg6 arg7 harg7 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x1024) hz, View.ld_unit_zero (S := S1024x1024) hz]

/-- The last tile: the buffer holding `xo4` ends at `(xo4 + x0 · x1) · scale row + bias row`. -/
theorem out_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (hc0 : ¬cond0_0 i) (hc1 : cond0_1 i) (x0 : Vec F S2048x1024 .bf16) (x1 : Vec F S1024x1024 .bf16) (x2 : Vec F S1x1024 .f32) (x3 : Vec F S1x1024 .f32) (xo4 : Vec F S2048x1024 .f32) :
    out0_C_4 c i arg3 harg3 arg4 harg4 arg5 harg5 arg6 harg6 arg7 harg7 hc0 hc1 x0 x1 x2 x3 xo4 = k0_pay3 (k0_pay2 xo4 x0 x1) x2 x3 := by
  unfold out0_C_4
  rw [View.read_writes_eq_canon _ _ _ (cover0_C_4 c i arg3 harg3 arg4 harg4 arg5 harg5 arg6 harg6 arg7 harg7 hc0 hc1 x0 x1 x2 x3 xo4)]
  unfold kernelRun0_C
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread,
    harg7.read_unread, View.ld_unit_zero (S := S2048x1024) hz, View.ld_unit_zero (S := S1024x1024) hz,
    View.ld_unit_zero (S := S1x1024) hz]

end Cert.KernelIdeal.Pieces

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Payload.lean ====
/-
  The values the kernel body stores, read at one entry (p, q) of the 2048 × 1024 output tile, on the extended reals:
  the zero tile is 0; the accumulation step is the tile's entry plus the sum over the 1024 contracted positions of
  left(p, k) · right(k, q); the closing step is the entry times the scale row at q plus the bias row at q.
  (A cast between equal shapes moves nothing; a row spread over all rows reads the row.)
-/
import proofs.«178539_j71760313582388_2_alg».proof.Proof.Gen.KernelIdeal.Skeleton
import proofs.«178539_j71760313582388_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The zero tile reads 0 everywhere. -/
theorem pay1_apply (j : S2048x1024.Idx) : k0_pay1 (F := Ideal) j = 0 := by
  unfold k0_pay1
  exact Ideal.ofBits_zero_f32

/-- The product's left operand at output entry (r, c) and any contraction position is in row r. -/
theorem dot_lhs0 (j : S2048x1024.Idx) (k : dot_S2048x1024_S1024x1024_S2048x1024_1_0_0_1_n_n.contr.Idx) : (dot_S2048x1024_S1024x1024_S2048x1024_1_0_0_1_n_n.lhsIdx j k 0).val = (j 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- The right operand there is in column c. -/
theorem dot_rhs1 (j : S2048x1024.Idx) (k : dot_S2048x1024_S1024x1024_S2048x1024_1_0_0_1_n_n.contr.Idx) : (dot_S2048x1024_S1024x1024_S2048x1024_1_0_0_1_n_n.rhsIdx j k 1).val = (j 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- The accumulation step at (p, q): what the tile held plus the 1024 products along the contracted axis. -/
theorem pay2_apply (v3 : FVec Ideal S2048x1024 .f32) (v5 : FVec Ideal S2048x1024 .bf16) (v7 : FVec Ideal S1024x1024 .bf16)
    (p : Fin 2048) (q : Fin 1024) :
    k0_pay2 (F := Ideal) v3 v5 v7 (ix2 p q) = v3 (ix2 p q) + ∑ k : Fin 1024, v5 (ix2 p k) * v7 (ix2 k q) := by
  unfold k0_pay2
  simp only [shapeCast_self]
  refine (addf_apply _ _ _).trans ?_
  exact congrArg (v3 (ix2 p q) + ·)
    (Cert.LibPlainDot.matmul_zero_apply dot_S2048x1024_S1024x1024_S2048x1024_1_0_0_1_n_n rfl rfl rfl rfl dot_lhs0 dot_rhs1 none v5 v7 p q)

/-- The closing step at (p, q): the entry times the scale row at q, plus the bias row at q. -/
theorem pay3_apply (v15 : FVec Ideal S2048x1024 .f32) (v17 v21 : FVec Ideal S1x1024 .f32) (p : Fin 2048) (q : Fin 1024) :
    k0_pay3 (F := Ideal) v15 v17 v21 (ix2 p q)
      = v15 (ix2 p q) * v17 (ix2 (0 : Fin 1) q) + v21 (ix2 (0 : Fin 1) q) := by
  unfold k0_pay3
  simp only [shapeCast_self]
  rw [addf_apply, mulf_apply, broadcastTo_1b_ab_apply, broadcastTo_1b_ab_apply]

end Cert.KernelIdeal.Payload

end
-- ==== Proof.Blocks.lean ====
/-
  Where the blocks sit.  Grid point t (0 ≤ t < 256, the contracted axis fastest) is row tile t / 64, column tile
  (t / 4) mod 16 and contraction tile t mod 4.  The left operand's block at t is rows 2048·(t/64) + p, columns
  1024·(t mod 4) + k of the left array; the right operand's block is rows 1024·(t mod 4) + k, columns
  1024·((t/4) mod 16) + q of the right array; the scale and bias blocks are columns 1024·((t/4) mod 16) + q of
  their one-row arrays.  Each block entry is therefore the array read at those natural coordinates.
-/
import proofs.«178539_j71760313582388_2_alg».proof.Proof.Gen.KernelIdeal.Frame
import proofs.«178539_j71760313582388_2_alg».proof.Proof.Dequant
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Dequant

variable (m : (ℓ : Loc nD τ sig) → Buf (Elt Ideal) ℓ)

/-! ## The block index of every window at every grid point, decided once over the grid -/

theorem index0 : ∀ t : Fin cfg0.N, win0_0.index t (0 : Fin 2) = t.val / 64 ∧ win0_0.index t (1 : Fin 2) = t.val % 4 :=
  (by decide +kernel : ∀ t : Fin grid0.N, win0_0.index t (0 : Fin 2) = t.val / 64 ∧ win0_0.index t (1 : Fin 2) = t.val % 4)
theorem index1 : ∀ t : Fin cfg0.N, win0_1.index t (0 : Fin 2) = t.val % 4 ∧ win0_1.index t (1 : Fin 2) = t.val / 4 % 16 :=
  (by decide +kernel : ∀ t : Fin grid0.N, win0_1.index t (0 : Fin 2) = t.val % 4 ∧ win0_1.index t (1 : Fin 2) = t.val / 4 % 16)
theorem index2 : ∀ t : Fin cfg0.N, win0_2.index t (0 : Fin 2) = 0 ∧ win0_2.index t (1 : Fin 2) = t.val / 4 % 16 :=
  (by decide +kernel : ∀ t : Fin grid0.N, win0_2.index t (0 : Fin 2) = 0 ∧ win0_2.index t (1 : Fin 2) = t.val / 4 % 16)
theorem index3 : ∀ t : Fin cfg0.N, win0_3.index t (0 : Fin 2) = 0 ∧ win0_3.index t (1 : Fin 2) = t.val / 4 % 16 :=
  (by decide +kernel : ∀ t : Fin grid0.N, win0_3.index t (0 : Fin 2) = 0 ∧ win0_3.index t (1 : Fin 2) = t.val / 4 % 16)
theorem index4 : ∀ t : Fin cfg0.N, win0_4.index t (0 : Fin 2) = t.val / 64 ∧ win0_4.index t (1 : Fin 2) = t.val / 4 % 16 :=
  (by decide +kernel : ∀ t : Fin grid0.N, win0_4.index t (0 : Fin 2) = t.val / 64 ∧ win0_4.index t (1 : Fin 2) = t.val / 4 % 16)

/-! ## The input blocks read at natural coordinates of their arrays -/

/-- The left operand's block at point t, entry (p, k). -/
theorem iblk0_apply (c : Dev nD) (t : Fin cfg0.N) (p : Fin 2048) (k : Fin 1024) :
    (iblk m c 0 t : FVec Ideal S2048x1024 .bf16) (ix2 p k)
      = nat2 (V m c main_v1 : S8192x4096.Idx → EReal) (t.val / 64 * 2048 + p.val) (t.val % 4 * 1024 + k.val) := by
  have hN : t.val < 256 := lt_of_lt_of_eq t.isLt (show cfg0.N = 256 from N_0)
  rw [nat2_of_lt _ (show t.val / 64 * 2048 + p.val < 8192 by omega) (show t.val % 4 * 1024 + k.val < 4096 by omega)]
  unfold iblk
  rw [View.read_apply]
  show V m c main_v1 _ = V m c main_v1 _
  refine congrArg (V m c main_v1) ?_
  funext a
  apply Fin.ext
  match a with
  | ⟨0, _⟩ => show win0_0.index t (0 : Fin 2) * 2048 + 1 * p.val = t.val / 64 * 2048 + p.val; rw [(index0 t).1]; omega
  | ⟨1, _⟩ => show win0_0.index t (1 : Fin 2) * 1024 + 1 * k.val = t.val % 4 * 1024 + k.val; rw [(index0 t).2]; omega

/-- The right operand's block at point t, entry (k, q). -/
theorem iblk1_apply (c : Dev nD) (t : Fin cfg0.N) (k : Fin 1024) (q : Fin 1024) :
    (iblk m c 1 t : FVec Ideal S1024x1024 .bf16) (ix2 k q)
      = nat2 (V m c main_v2 : S4096x16384.Idx → EReal) (t.val % 4 * 1024 + k.val) (t.val / 4 % 16 * 1024 + q.val) := by
  have hN : t.val < 256 := lt_of_lt_of_eq t.isLt (show cfg0.N = 256 from N_0)
  rw [nat2_of_lt _ (show t.val % 4 * 1024 + k.val < 4096 by omega) (show t.val / 4 % 16 * 1024 + q.val < 16384 by omega)]
  unfold iblk
  rw [View.read_apply]
  show V m c main_v2 _ = V m c main_v2 _
  refine congrArg (V m c main_v2) ?_
  funext a
  apply Fin.ext
  match a with
  | ⟨0, _⟩ => show win0_1.index t (0 : Fin 2) * 1024 + 1 * k.val = t.val % 4 * 1024 + k.val; rw [(index1 t).1]; omega
  | ⟨1, _⟩ => show win0_1.index t (1 : Fin 2) * 1024 + 1 * q.val = t.val / 4 % 16 * 1024 + q.val; rw [(index1 t).2]; omega

/-- The scale row's block at point t, entry (0, q). -/
theorem iblk2_apply (c : Dev nD) (t : Fin cfg0.N) (q : Fin 1024) :
    (iblk m c 2 t : FVec Ideal S1x1024 .f32) (ix2 (0 : Fin 1) q)
      = nat2 (V m c main_v3 : S1x16384.Idx → EReal) 0 (t.val / 4 % 16 * 1024 + q.val) := by
  have hN : t.val < 256 := lt_of_lt_of_eq t.isLt (show cfg0.N = 256 from N_0)
  rw [nat2_of_lt _ (show 0 < 1 by omega) (show t.val / 4 % 16 * 1024 + q.val < 16384 by omega)]
  unfold iblk
  rw [View.read_apply]
  show V m c main_v3 _ = V m c main_v3 _
  refine congrArg (V m c main_v3) ?_
  funext a
  apply Fin.ext
  match a with
  | ⟨0, _⟩ => show win0_2.index t (0 : Fin 2) * 1 + 1 * 0 = 0; rw [(index2 t).1]
  | ⟨1, _⟩ => show win0_2.index t (1 : Fin 2) * 1024 + 1 * q.val = t.val / 4 % 16 * 1024 + q.val; rw [(index2 t).2]; omega

/-- The bias row's block at point t, entry (0, q). -/
theorem iblk3_apply (c : Dev nD) (t : Fin cfg0.N) (q : Fin 1024) :
    (iblk m c 3 t : FVec Ideal S1x1024 .f32) (ix2 (0 : Fin 1) q)
      = nat2 (V m c main_v4 : S1x16384.Idx → EReal) 0 (t.val / 4 % 16 * 1024 + q.val) := by
  have hN : t.val < 256 := lt_of_lt_of_eq t.isLt (show cfg0.N = 256 from N_0)
  rw [nat2_of_lt _ (show 0 < 1 by omega) (show t.val / 4 % 16 * 1024 + q.val < 16384 by omega)]
  unfold iblk
  rw [View.read_apply]
  show V m c main_v4 _ = V m c main_v4 _
  refine congrArg (V m c main_v4) ?_
  funext a
  apply Fin.ext
  match a with
  | ⟨0, _⟩ => show win0_3.index t (0 : Fin 2) * 1 + 1 * 0 = 0; rw [(index3 t).1]
  | ⟨1, _⟩ => show win0_3.index t (1 : Fin 2) * 1024 + 1 * q.val = t.val / 4 % 16 * 1024 + q.val; rw [(index3 t).2]; omega

end Cert.KernelIdeal.Blocks

end
-- ==== Proof.Invariant.lean ====
/-
  What the output tile's buffer holds after each grid point.  Points 4u, 4u+1, 4u+2, 4u+3 visit the same output tile
  (row tile u / 16, column tile u mod 16) with contraction tiles 0, 1, 2, 3.  After the point with contraction tile
  j < 3 the buffer's entry (p, q) is zero plus the first j + 1 tile products of the output entry in row
  2048·(t/64) + p and column 1024·((t/4) mod 16) + q; after the last point it is zero plus all four, times the
  column's scale, plus the column's bias.  By induction on the point: the first point of a tile starts from the
  zero tile, every later one from what the point before left.
-/
import proofs.«178539_j71760313582388_2_alg».proof.Proof.Pieces
import proofs.«178539_j71760313582388_2_alg».proof.Proof.Payload
import proofs.«178539_j71760313582388_2_alg».proof.Proof.Blocks
import proofs.«178539_j71760313582388_2_alg».proof.Proof.Dequant

set_option maxRecDepth 16384

noncomputable section

open scoped BigOperators

namespace Cert.KernelIdeal.Invariant

open Cert.KernelIdeal Cert.KernelIdeal.Gen Idealize.ShloMosaic Idealize.ShloMosaic.TcCoe Idealize.SL.Sem
open Idealize.ShloMosaic.ValueIdx Cert.Dequant

variable (m : (ℓ : Loc nD τ sig) → Buf (Elt Ideal) ℓ)

/-- The four arrays the windows read, at natural coordinates. -/
abbrev Xn (c : Dev nD) : ℕ → ℕ → EReal := nat2 (V m c main_v1 : S8192x4096.Idx → EReal)
abbrev Wn (c : Dev nD) : ℕ → ℕ → EReal := nat2 (V m c main_v2 : S4096x16384.Idx → EReal)
abbrev Sn (c : Dev nD) : ℕ → EReal := nat2 (V m c main_v3 : S1x16384.Idx → EReal) 0
abbrev Bn (c : Dev nD) : ℕ → EReal := nat2 (V m c main_v4 : S1x16384.Idx → EReal) 0

/-- The output row and column of entry (p, q) of the tile visited at point n. -/
abbrev row (n : ℕ) (p : Fin 2048) : ℕ := n / 64 * 2048 + p.val
abbrev col (n : ℕ) (q : Fin 1024) : ℕ := n / 4 % 16 * 1024 + q.val

/-- 1024 products of a left block's row p and a right block's column q, the blocks being rows/columns
    1024 j + k of the arrays X and W, are tile j of the product at the output entry (r, o). -/
theorem addend_eq (x0 : FVec Ideal S2048x1024 .bf16) (x1 : FVec Ideal S1024x1024 .bf16) (X W : ℕ → ℕ → EReal) (r o j : ℕ)
    (p : Fin 2048) (q : Fin 1024) (h0 : ∀ k : Fin 1024, x0 (ix2 p k) = X r (j * 1024 + k.val))
    (h1 : ∀ k : Fin 1024, x1 (ix2 k q) = W (j * 1024 + k.val) o) :
    (∑ k : Fin 1024, x0 (ix2 p k) * x1 (ix2 k q)) = tile X W r o j := by
  unfold tile
  exact Finset.sum_congr rfl fun k _ => by rw [h0 k, h1 k]

/-- At the first point of a tile: zero plus the first tile product. -/
theorem step_A (c : Dev nD) (t : Fin cfg0.N) (h0 : t.val % 4 = 0) (h1 : ¬t.val % 4 = 3) (p : Fin 2048) (q : Fin 1024) :
    outsAt0 m c t.val t.isLt (ix2 p q) = 0 + tile (Xn m c) (Wn m c) (row t.val p) (col t.val q) (t.val % 4) := by
  refine (congrFun (outsAt0_A m c t h0 h1) (ix2 p q)).trans ?_
  refine (congrFun (Pieces.out_A c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t)) (ix2 p q)).trans ?_
  refine (Payload.pay2_apply (k0_pay1 (F := Ideal)) (iblk m c 0 t) (iblk m c 1 t) p q).trans ?_
  rw [Payload.pay1_apply, addend_eq (iblk m c 0 t) (iblk m c 1 t) (Xn m c) (Wn m c) (row t.val p) (col t.val q) (t.val % 4) p q
      (fun k => Blocks.iblk0_apply m c t p k) (fun k => Blocks.iblk1_apply m c t k q)]

/-- At a middle point: what the point before left, plus this point's tile product. -/
theorem step_B (c : Dev nD) (t : Fin cfg0.N) (h0 : ¬t.val % 4 = 0) (h1 : ¬t.val % 4 = 3) (p : Fin 2048) (q : Fin 1024) :
    outsAt0 m c t.val t.isLt (ix2 p q)
      = outsAt0 m c (t.val - 1) (Nat.lt_of_le_of_lt (Nat.sub_le _ _) t.isLt) (ix2 p q)
        + tile (Xn m c) (Wn m c) (row t.val p) (col t.val q) (t.val % 4) := by
  refine (congrFun (outsAt0_B m c t h0 h1) (ix2 p q)).trans ?_
  refine (congrFun (Pieces.out_B c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt))) (ix2 p q)).trans ?_
  refine (Payload.pay2_apply (outsAt0 m c (t.val - 1) (Nat.lt_of_le_of_lt (Nat.sub_le _ _) t.isLt)) (iblk m c 0 t) (iblk m c 1 t) p q).trans ?_
  rw [addend_eq (iblk m c 0 t) (iblk m c 1 t) (Xn m c) (Wn m c) (row t.val p) (col t.val q) (t.val % 4) p q
      (fun k => Blocks.iblk0_apply m c t p k) (fun k => Blocks.iblk1_apply m c t k q)]

/-- At the last point of a tile: the same sum, then times the column's scale plus the column's bias. -/
theorem step_C (c : Dev nD) (t : Fin cfg0.N) (h0 : ¬t.val % 4 = 0) (h1 : t.val % 4 = 3) (p : Fin 2048) (q : Fin 1024) :
    outsAt0 m c t.val t.isLt (ix2 p q)
      = (outsAt0 m c (t.val - 1) (Nat.lt_of_le_of_lt (Nat.sub_le _ _) t.isLt) (ix2 p q)
          + tile (Xn m c) (Wn m c) (row t.val p) (col t.val q) (t.val % 4)) * Sn m c (col t.val q) + Bn m c (col t.val q) := by
  refine (congrFun (outsAt0_C m c t h0 h1) (ix2 p q)).trans ?_
  refine (congrFun (Pieces.out_C c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt))) (ix2 p q)).trans ?_
  refine (Payload.pay3_apply (k0_pay2 (outsAt0 m c (t.val - 1) (Nat.lt_of_le_of_lt (Nat.sub_le _ _) t.isLt)) (iblk m c 0 t) (iblk m c 1 t)) (iblk m c 2 t) (iblk m c 3 t) p q).trans ?_
  rw [Payload.pay2_apply (outsAt0 m c (t.val - 1) (Nat.lt_of_le_of_lt (Nat.sub_le _ _) t.isLt)) (iblk m c 0 t) (iblk m c 1 t) p q,
    addend_eq (iblk m c 0 t) (iblk m c 1 t) (Xn m c) (Wn m c) (row t.val p) (col t.val q) (t.val % 4) p q
      (fun k => Blocks.iblk0_apply m c t p k) (fun k => Blocks.iblk1_apply m c t k q), Blocks.iblk2_apply m c t q, Blocks.iblk3_apply m c t q]

/-- THE INVARIANT, by induction on the point. -/
theorem outsAt_eq (c : Dev nD) : ∀ (n : ℕ) (h : n < cfg0.N) (p : Fin 2048) (q : Fin 1024),
    (¬n % 4 = 3 → outsAt0 m c n h (ix2 p q) = partialAcc (Xn m c) (Wn m c) (row n p) (col n q) (n % 4 + 1))
    ∧ (n % 4 = 3 → outsAt0 m c n h (ix2 p q) = tiled (Xn m c) (Wn m c) (Sn m c) (Bn m c) (row n p) (col n q))
  | 0, h, p, q => ⟨fun _ => (step_A m c ⟨0, h⟩ rfl (by dsimp only; omega) p q).trans (partialAcc_one _ _ _ _).symm,
      fun h3 => absurd h3 (by decide)⟩
  | n + 1, h, p, q => by
    have hN : n + 1 < 256 := lt_of_lt_of_eq h (show cfg0.N = 256 from N_0)
    have ih := outsAt_eq c n (Nat.lt_of_succ_lt h) p q
    by_cases h0 : (n + 1) % 4 = 0
    · refine ⟨fun _ => ?_, fun h3 => absurd h3 (by omega)⟩
      refine (step_A m c ⟨n + 1, h⟩ h0 (by dsimp only; omega) p q).trans ?_
      show 0 + tile _ _ (row (n + 1) p) (col (n + 1) q) ((n + 1) % 4) = _
      rw [h0]
      exact (partialAcc_one _ _ _ _).symm
    · have e1 : n / 64 = (n + 1) / 64 := by omega
      have e2 : n / 4 % 16 = (n + 1) / 4 % 16 := by omega
      have e3 : n % 4 + 1 = (n + 1) % 4 := by omega
      have hprev : outsAt0 m c n (Nat.lt_of_succ_lt h) (ix2 p q)
          = partialAcc (Xn m c) (Wn m c) (row (n + 1) p) (col (n + 1) q) ((n + 1) % 4) := by
        have := ih.1 (by omega)
        rw [e3] at this
        show _ = partialAcc _ _ ((n + 1) / 64 * 2048 + p.val) ((n + 1) / 4 % 16 * 1024 + q.val) _
        rw [← e1, ← e2]
        exact this
      by_cases h3 : (n + 1) % 4 = 3
      · refine ⟨fun hne => absurd h3 hne, fun _ => ?_⟩
        refine (step_C m c ⟨n + 1, h⟩ h0 h3 p q).trans ?_
        show (outsAt0 m c n _ (ix2 p q) + tile _ _ (row (n + 1) p) (col (n + 1) q) ((n + 1) % 4)) * _ + _ = _
        rw [hprev, ← partialAcc_succ, h3]
        rfl
      · refine ⟨fun _ => ?_, fun h3' => absurd h3' h3⟩
        refine (step_B m c ⟨n + 1, h⟩ h0 h3 p q).trans ?_
        show outsAt0 m c n _ (ix2 p q) + tile _ _ (row (n + 1) p) (col (n + 1) q) ((n + 1) % 4) = _
        rw [hprev, ← partialAcc_succ]

end Cert.KernelIdeal.Invariant

end
-- ==== Proof.HostPrefix.lean ====
/-
  The arrays the kernel's windows read are written by host operations before the region: the left array is the
  input x recast from [4, 2048, 4096] to [8192, 4096] (row 2048 b + s is x's (b, s)) and narrowed to sixteen bits,
  which changes no value on the extended reals; the right array is the integer weight converted to a float, the
  integer itself as a real; the scale and bias arrays are the two vectors recast to one row.
-/
import proofs.«178539_j71760313582388_2_alg».proof.Proof.Gen.KernelIdeal.Frame
import proofs.«178539_j71760313582388_2_alg».proof.Proof.Dequant
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx Cert.Dequant

variable (m : (ℓ : Loc nD τ sig) → Buf (Elt Ideal) ℓ)

/-- The left array: x recast to two axes, then narrowed. -/
theorem V_v1 (c : Dev nD) : (V m c main_v1 : S8192x4096.Idx → EReal)
    = (truncf (F := Ideal) .bf16 (shapeCast S8192x4096 (m ((c : Thread nD τ).loc main_arg0) : FVec Ideal S4x2048x4096 .f32)
        shapeCasts_S4x2048x4096_S8192x4096) bitsLt_bf16_f32 : FVec Ideal S8192x4096 .bf16) := by
  show StableHlo.after hostOps0 (fun b => m (c, b)) (Proc.devRef .tc main_v1) = _
  after_results
  rfl

/-- The right array: the integer weight as a float. -/
theorem V_v2 (c : Dev nD) : (V m c main_v2 : S4096x16384.Idx → EReal)
    = (sitofp .bf16 (m ((c : Thread nD τ).loc main_arg1) : IVec S4096x16384 32) : FVec Ideal S4096x16384 .bf16) := by
  show StableHlo.after hostOps0 (fun b => m (c, b)) (Proc.devRef .tc main_v2) = _
  after_results

/-- The scale array: the scale vector as one row. -/
theorem V_v3 (c : Dev nD) : (V m c main_v3 : S1x16384.Idx → EReal)
    = shapeCast S1x16384 (m ((c : Thread nD τ).loc main_arg2) : FVec Ideal S16384 .f32) shapeCasts_S16384_S1x16384 := by
  show StableHlo.after hostOps0 (fun b => m (c, b)) (Proc.devRef .tc main_v3) = _
  after_results
  rfl

/-- The bias array: the bias vector as one row. -/
theorem V_v4 (c : Dev nD) : (V m c main_v4 : S1x16384.Idx → EReal)
    = shapeCast S1x16384 (m ((c : Thread nD τ).loc main_arg3) : FVec Ideal S16384 .f32) shapeCasts_S16384_S1x16384 := by
  show StableHlo.after hostOps0 (fun b => m (c, b)) (Proc.devRef .tc main_v4) = _
  after_results
  rfl

/-- Row 2048 b + s, column k of the left array is x at (b, s, k). -/
theorem left_apply (c : Dev nD) (b : Fin 4) (s : Fin 2048) (k : Fin 4096) :
    nat2 (V m c main_v1 : S8192x4096.Idx → EReal) (b.val * 2048 + s.val) k.val
      = (m ((c : Thread nD τ).loc main_arg0) : S4x2048x4096.Idx → EReal) (ix3 b s k) := by
  rw [nat2_of_lt _ (show b.val * 2048 + s.val < 8192 by omega) k.isLt, V_v1]
  refine Eq.trans (truncf_apply (φ := .f32) (ψ := .bf16) _ bitsLt_bf16_f32 _) ?_
  refine shapeCast_apply _ _ _ _ ?_
  show ((⟨3, ![4, 2048, 4096]⟩ : Shape).rowMajor (ix3 b s k)).val = ((⟨2, ![8192, 4096]⟩ : Shape).rowMajor (ix2 _ _)).val
  rw [Shape.rowMajor_val_three, Shape.rowMajor_val_two]
  rfl

/-- Row k, column o of the right array is the integer weight at (k, o), as a real. -/
theorem right_apply (c : Dev nD) (k : Fin 4096) (o : Fin 16384) :
    nat2 (V m c main_v2 : S4096x16384.Idx → EReal) k.val o.val
      = wreal ((m ((c : Thread nD τ).loc main_arg1) : S4096x16384.Idx → BitVec 32) (ix2 k o)) := by
  rw [nat2_of_lt _ k.isLt o.isLt, V_v2]
  rfl

/-- Column o of the scale array is the scale vector at o. -/
theorem scale_apply (c : Dev nD) (o : Fin 16384) :
    nat2 (V m c main_v3 : S1x16384.Idx → EReal) 0 o.val
      = (m ((c : Thread nD τ).loc main_arg2) : S16384.Idx → EReal) (ix1 o) := by
  rw [nat2_of_lt _ (show 0 < 1 by omega) o.isLt, V_v3]
  exact shapeCast_a_1a_apply _ _ _ _

/-- Column o of the bias array is the bias vector at o. -/
theorem bias_apply (c : Dev nD) (o : Fin 16384) :
    nat2 (V m c main_v4 : S1x16384.Idx → EReal) 0 o.val
      = (m ((c : Thread nD τ).loc main_arg3) : S16384.Idx → EReal) (ix1 o) := by
  rw [nat2_of_lt _ (show 0 < 1 by omega) o.isLt, V_v4]
  exact shapeCast_a_1a_apply _ _ _ _

end Cert.KernelIdeal.HostPrefix

end
-- ==== Proof.Final.lean ====
/-
  The output array after the region, and the program's result.  The output tile is written back only after the
  last contraction tile (points t with t mod 4 = 3), and then holds, at (p, q), the product accumulated over the four
  tiles, rescaled and shifted, of the output entry in row 2048·(t/64) + p, column 1024·((t/4) mod 16) + q: the block
  of ONE function of the whole array.  The 4 × 16 written-back tiles cover the 8192 × 16384 array (entry (r, o) lies
  in the tile written back at point 64·(r/2048) + 4·(o/1024) + 3), so the array ends at that function; the closing
  host operation recasts it to [4, 2048, 16384], entry (b, s, o) being the array's (2048 b + s, o).
-/
import proofs.«178539_j71760313582388_2_alg».proof.Proof.Invariant
import proofs.«178539_j71760313582388_2_alg».proof.Proof.HostPrefix
import proofs.«178539_j71760313582388_2_alg».proof.Proof.Dequant
import Idealize.ShloMosaic.Lib.Pipeline.Value
import Idealize.ShloMosaic.Lib.StableHlo.Run

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.StableHlo Idealize.ShloMosaic.ValueIdx Cert.Dequant Cert.LibERealStats
open Cert.KernelIdeal.Invariant (Xn Wn Sn Bn)

variable (m : (ℓ : Loc nD τ sig) → Buf (Elt Ideal) ℓ) (ρ : Dev nD → PrngReg)

/-- The output array after the region: entry (r, o) is the accumulated, rescaled and shifted product. -/
def Y (c : Dev nD) : S8192x16384.Idx → EReal := fun i =>
  tiled (Xn m c) (Wn m c) (Sn m c) (Bn m c) (i 0).val (i 1).val

/-- What a writing-back point writes is its block of `Y`. -/
theorem flushed_eq (c : Dev nD) (t : Fin cfg0.N) (hf : (cfg0.win 4).flush t = true) :
    (dats m 0 c).flushed 4 t = ((cfg0.win 4).blk t).view.read (Elt Ideal) (Y m c) := by
  have h3 : t.val % 4 = 3 := (flush0_4 t).mp hf
  show (cfg0.win 4).cut (grid0.coords t) ((dats m 0 c).after 4 t) = _
  rw [after0_4]
  funext y
  obtain ⟨p, q, rfl⟩ : ∃ (p : Fin 2048) (q : Fin 1024), y = ix2 p q := ⟨y 0, y 1, eq_ix2 y⟩
  show outsAt0 m c t.val t.isLt (ix2 p q) = Y m c (((cfg0.win 4).blk t).view.emb (ix2 p q))
  rw [(Invariant.outsAt_eq m c t.val t.isLt p q).2 h3]
  have e0 : ((((cfg0.win 4).blk t).view.emb (ix2 p q)) (0 : Fin 2)).val = Invariant.row t.val p := by
    show win0_4.index t (0 : Fin 2) * 2048 + 1 * p.val = t.val / 64 * 2048 + p.val
    rw [(Blocks.index4 t).1]; omega
  have e1 : ((((cfg0.win 4).blk t).view.emb (ix2 p q)) (1 : Fin 2)).val = Invariant.col t.val q := by
    show win0_4.index t (1 : Fin 2) * 1024 + 1 * q.val = t.val / 4 % 16 * 1024 + q.val
    rw [(Blocks.index4 t).2]; omega
  show _ = tiled _ _ _ _ ((((cfg0.win 4).blk t).view.emb (ix2 p q)) (0 : Fin 2)).val ((((cfg0.win 4).blk t).view.emb (ix2 p q)) (1 : Fin 2)).val
  rw [e0, e1]

/-- An entry of the array is in point t's block iff each coordinate is in the block's range. -/
theorem mem_blk (t : Fin cfg0.N) (i : S8192x16384.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v5).slice (win0_4.rect t)).set ↔ _
  rw [View.set_slice_whole, Rect.mem_set_unit]
  exact Iff.rfl

/-- Every entry lies in the block of a writing-back point. -/
theorem cover (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hN : cfg0.N = 256 := N_0
  have hlt : (i 0).val / 2048 * 64 + (i 1).val / 1024 * 4 + 3 < cfg0.N := by rw [hN]; omega
  refine ⟨⟨(i 0).val / 2048 * 64 + (i 1).val / 1024 * 4 + 3, hlt⟩, (flush0_4 _).mpr (by dsimp only; omega), ?_⟩
  rw [mem_blk]
  intro a
  match a with
  | ⟨0, _⟩ =>
    show win0_4.index ⟨_, hlt⟩ (0 : Fin 2) * 2048 ≤ (i 0).val ∧ (i 0).val < win0_4.index ⟨_, hlt⟩ (0 : Fin 2) * 2048 + 2048
    rw [(Blocks.index4 ⟨_, hlt⟩).1]; dsimp only; omega
  | ⟨1, _⟩ =>
    show win0_4.index ⟨_, hlt⟩ (1 : Fin 2) * 1024 ≤ (i 1).val ∧ (i 1).val < win0_4.index ⟨_, hlt⟩ (1 : Fin 2) * 1024 + 1024
    rw [(Blocks.index4 ⟨_, hlt⟩).2]; dsimp only; omega

/-- So the output array ends at `Y`. -/
theorem final (c : Dev nD) : (dats m 0 c).arrAt 4 cfg0.N = Y m c :=
  (dats m 0 c).arrAt_eq_of_cover 4 (Y m c) (flushed_eq m c) cover

/-- The program's result: the output array recast to three axes. -/
def result (c : Dev nD) : S4x2048x16384.Idx → EReal :=
  shapeCast S4x2048x16384 (Y m c) shapeCasts_S8192x16384_S4x2048x16384

/-- The closing host operation leaves the result. -/
theorem tail_eq (c : Dev nD) :
    (Pipeline.afterTail₀ cfgs (dats m) 0 (V0 m) [hostOps1] c main_v6 : S4x2048x16384.Idx → EReal) = result m c := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v5)
      = Y m c := (Pipeline.withArrays_arr spec0 launch0.win.arr_inj c _ _ 4).trans (final m c)
  rw [hA]
  rfl

/-- THE RUN, READ: every weakly fair execution ends with the result array at `result` and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.KernelValue.lean ====
/-
  The kernel's result is the specification.  Entry (b, s, o) of the result is the output array's entry
  (2048 b + s, o): the product accumulated over the four contraction tiles, then rescaled and shifted.  The left array's
  row 2048 b + s is x's (b, s), the right array holds the integer weights as reals, the scale and bias rows are the
  two vectors; all of x, the weights and the scale are finite, so the tile law turns the accumulated and rescaled
  product into the sum over k of x[b, s, k] · (w[k, o] · scale[o]), plus bias[o].
-/
import proofs.«178539_j71760313582388_2_alg».proof.Proof.Final
import proofs.«178539_j71760313582388_2_alg».proof.Proof.HostPrefix
import proofs.«178539_j71760313582388_2_alg».proof.Proof.Dequant

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.Dequant Cert.LibERealStats
open Cert.KernelIdeal.Invariant (Xn Wn Sn Bn)

variable (m : (ℓ : Loc nD τ sig) → Buf (Elt Ideal) ℓ)

/-- The specification at entry (b, s, o). -/
theorem G3_apply (x : SX.Idx → EReal) (w : SW.Idx → BitVec 32) (sc bi : SV.Idx → EReal) (b : Fin 4) (s : Fin 2048)
    (o : Fin 16384) :
    G3 x w sc bi (ix3 b s o) = (∑ k : Fin 4096, x (ix3 b s k) * (wreal (w (ix2 k o)) * sc (ix1 o))) + bi (ix1 o) := rfl

/-- Entry (b, s, o) of the result is entry (2048 b + s, o) of the output array. -/
theorem result_apply (c : Dev nD) (b : Fin 4) (s : Fin 2048) (o : Fin 16384) :
    Final.result m c (ix3 b s o)
      = tiled (Xn m c) (Wn m c) (Sn m c) (Bn m c) (b.val * 2048 + s.val) o.val := by
  have hr : b.val * 2048 + s.val < 8192 := by omega
  unfold Final.result
  refine (shapeCast_apply (Final.Y m c) shapeCasts_S8192x16384_S4x2048x16384 (ix3 b s o)
    (ix2 ⟨b.val * 2048 + s.val, hr⟩ o) ?_).trans rfl
  show ((⟨2, ![8192, 16384]⟩ : Shape).rowMajor (ix2 _ _)).val = ((⟨3, ![4, 2048, 16384]⟩ : Shape).rowMajor (ix3 b s o)).val
  rw [Shape.rowMajor_val_three, Shape.rowMajor_val_two]
  rfl

/-- THE KERNEL'S VALUE: for finite x and scale the result is the specification of the argument arrays. -/
theorem result_eq (c : Dev nD)
    (hx : ∀ i, IsReal ((m ((c : Thread nD τ).loc main_arg0) : S4x2048x4096.Idx → EReal) i))
    (hs : ∀ i, IsReal ((m ((c : Thread nD τ).loc main_arg2) : S16384.Idx → EReal) i)) :
    Final.result m c = G3 (m ((c : Thread nD τ).loc main_arg0)) (m ((c : Thread nD τ).loc main_arg1))
      (m ((c : Thread nD τ).loc main_arg2)) (m ((c : Thread nD τ).loc main_arg3)) := by
  funext i
  obtain ⟨b, s, o, rfl⟩ : ∃ (b : Fin 4) (s : Fin 2048) (o : Fin 16384), i = ix3 b s o := ⟨i 0, i 1, i 2, eq_ix3 i⟩
  have hX : ∀ j, IsReal ((V m c main_v1 : S8192x4096.Idx → EReal) j) := fun j => by
    rw [HostPrefix.V_v1]; exact hx _
  have hW : ∀ j, IsReal ((V m c main_v2 : S4096x16384.Idx → EReal) j) := fun j => by
    rw [HostPrefix.V_v2]; exact wreal_isReal _
  have hS : ∀ j, IsReal ((V m c main_v3 : S1x16384.Idx → EReal) j) := fun j => by
    rw [HostPrefix.V_v3]; exact hs _
  rw [result_apply, G3_apply,
    tiled_eq (Xn m c) (Wn m c) (Sn m c) (Bn m c) (b.val * 2048 + s.val) o.val
      (fun k => nat2_isReal _ hX _ _) (fun k => nat2_isReal _ hW _ _) (nat2_isReal _ hS _ _)]
  refine congrArg₂ (· + ·) (Finset.sum_congr rfl fun k _ => ?_) (HostPrefix.bias_apply m c o)
  exact congrArg₂ (· * ·) (HostPrefix.left_apply m c b s k)
    (congrArg₂ (· * ·) (HostPrefix.right_apply m c k o) (HostPrefix.scale_apply m c o))

end Cert.KernelIdeal.KernelValue

end
-- ==== Proof.RefSide.lean ====
/-
  The reference computes, entry by entry,
      out[b, s, o] = (Σ_k x[b, s, k] · (real(w[k, o]) · scale[o])) + bias[o],
  where real(w) is the signed integer word read as a real number.  This module reads the reference's last value at an
  index, one operation at a time, and identifies the result with the specification `Cert.Dequant.G3`.
-/
import proofs.«178539_j71760313582388_2_alg».proof.Proof.Gen.ReferenceIdeal.Read
import proofs.«178539_j71760313582388_2_alg».proof.Proof.Dequant
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The left operand of the product is read at (b, s, k). -/
theorem lidx_eq (i : S4x2048x16384.Idx) (k : Fin 4096) :
    lidx_main_v4 i k = ix3 (i 0 : Fin 4) (i 1 : Fin 2048) k :=
  funext fun a => Fin.ext (by
    match a with
    | ⟨0, _⟩ => rfl
    | ⟨1, _⟩ => rfl
    | ⟨2, _⟩ => rfl)

/-- The right operand of the product is read at (k, o). -/
theorem ridx_eq (i : S4x2048x16384.Idx) (k : Fin 4096) :
    ridx_main_v4 i k = ix2 k (i 2 : Fin 16384) :=
  funext fun a => Fin.ext (by
    match a with
    | ⟨0, _⟩ => rfl
    | ⟨1, _⟩ => rfl)

/-- The scale, broadcast along the rows of the weight matrix, is read at the column o. -/
theorem sidx_eq (j : S4096x16384.Idx) : idx_main_v1 (idx_main_v2 j) = ix1 (j 1 : Fin 16384) :=
  funext fun a => Fin.ext (by
    match a with
    | ⟨0, _⟩ => rfl)

/-- The bias, broadcast along the two leading axes of the result, is read at the column o. -/
theorem bidx_eq (i : S4x2048x16384.Idx) : idx_main_v5 (idx_main_v6 i) = ix1 (i 2 : Fin 16384) :=
  funext fun a => Fin.ext (by
    match a with
    | ⟨0, _⟩ => rfl)

/-- The reference's result is the specification: the sum over k of x[b, s, k] · (real(w[k, o]) · scale[o]), plus bias[o]. -/
theorem ref_eq (x0 : (⟨S4x2048x4096, .f32⟩ : BufTy).Contents (Elt Ideal))
    (x1 : (⟨S4096x16384, .i32⟩ : BufTy).Contents (Elt Ideal))
    (x2 x3 : (⟨S16384, .f32⟩ : BufTy).Contents (Elt Ideal)) :
    Cert.ReferenceIdeal.Read.val_main_v7 (F := Ideal) x0 x1 x2 x3 = Cert.Dequant.G3 x0 x1 x2 x3 := by
  funext i
  rw [val_main_v7_apply, val_main_v4_apply, val_main_v6_apply, val_main_v5_apply, bidx_eq, Ideal.addf_def]
  unfold Cert.Dequant.G3
  refine congrArg (· + x3 (ix1 (i 2 : Fin 16384))) (Finset.sum_congr rfl fun k _ => ?_)
  rw [val_main_v3_apply, val_main_v0_apply, val_main_v2_apply, val_main_v1_apply, sidx_eq, lidx_eq, ridx_eq,
    Ideal.mulf_def]
  rfl

end Cert.ReferenceIdeal.RefValue

end
-- ==== Proof.Finite.lean ====
/-
  The precondition says: every entry of the left operand x, of the scale and of the bias has absolute value below +∞.
  It is printed as a chain of operations — |·|, a comparison with the constant +∞, a reduction of the comparison's bits
  by "and" from the bit 1, and the "and" of the three results — whose value is the single bit 1.  This module reads that
  bit back: each of the three arrays holds, at every index, the image of a real number.  (The integer weights need no
  hypothesis: an integer read as a real is finite.)
-/
import proofs.«178539_j71760313582388_2_alg».proof.Defs
import proofs.«178539_j71760313582388_2_alg».proof.Proof.Gen.Pre_finite_inputs
import proofs.«178539_j71760313582388_2_alg».proof.Proof.LibERealStats
import Idealize.ShloMosaic.Lib.ReduceAll
import Idealize.ShloMosaic.Lib.ValueIdx

noncomputable section

namespace Cert.KernelIdeal.Finite

open Idealize.ShloMosaic Idealize.ShloMosaic.TcCoe Idealize.SL.Sem Cert.LibERealStats

/-- The shape with no axes has exactly one index. -/
instance : Subsingleton Cert.Pre_finite_inputs.S_.Idx := ⟨fun a b => funext fun d => d.elim0⟩

/-- The 32-bit pattern with all exponent bits set and nothing else is +∞. -/
theorem inf_bits : Ideal.ofBits .f32 0x7F800000#32 = (⊤ : EReal) := by simp [Ideal.ofBits, Ideal.ieee]

/-- One value: when the comparison |x| < +∞ answers the bit 1, x is the image of a real number. -/
theorem isReal_of_abs_olt_inf (x : Ideal .f32)
    (h : FloatOps.cmpf .olt (FloatOps.hostAbsf x) (FloatOps.ofBits (F := Ideal) .f32 0x7F800000#32) = 1#1) :
    IsReal x := by
  -- the comparison is the bit of "max x (-x) < the value of the pattern", and the pattern's value is ⊤
  change Ideal.cmp .olt (max (x : EReal) (-x)) (Ideal.ofBits .f32 0x7F800000#32) = 1#1 at h
  rw [inf_bits] at h
  have hlt : max (x : EReal) (-x) < ⊤ := by
    by_contra hn
    simp [Ideal.cmp, hn] at h
  exact isReal_of_abs_lt_top hlt

/-- One array: when the "and" over all indices of the bits |x i| < +∞, started from the bit 1, is 1, every entry of x
    is the image of a real number. -/
theorem all_isReal {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) (i : s.Idx) : IsReal (x i) :=
  isReal_of_abs_olt_inf (x i) (Host.reduce_andi_all _ _ hr hu ValueIdx.ix0 h i)

/-- Under the precondition the left operand, the scale and the bias hold only images of real numbers. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, Cert.LibERealStats.IsReal (m ((c.tc : Thread Cert.KernelIdeal.nD Cert.KernelIdeal.τ).loc Cert.KernelIdeal.main_arg0) i))
    ∧ (∀ i, Cert.LibERealStats.IsReal (m ((c.tc : Thread Cert.KernelIdeal.nD Cert.KernelIdeal.τ).loc Cert.KernelIdeal.main_arg2) i))
    ∧ (∀ i, Cert.LibERealStats.IsReal (m ((c.tc : Thread Cert.KernelIdeal.nD Cert.KernelIdeal.τ).loc Cert.KernelIdeal.main_arg3) i)) := by
  have h := congrFun (hpre c) ValueIdx.ix0
  dsimp only [Cert.Pre_finite_inputs.fn] at h
  obtain ⟨h01, h3⟩ := IntOp.andi_eq_one.1 h
  obtain ⟨h0, h2⟩ := IntOp.andi_eq_one.1 h01
  exact ⟨all_isReal _ _ _ _ h0, all_isReal _ _ _ _ h2, all_isReal _ _ _ _ h3⟩

end Cert.KernelIdeal.Finite

end
-- ==== Proof.lean ====
/-
  A matrix product with integer weights, a scale per output column and a bias per output column:
      out[b, s, o] = (Σ_k x[b, s, k] · (w[k, o] · scale[o])) + bias[o]        (x : [4, 2048, 4096], w : [4096, 16384]).
  The reference computes exactly this: it rescales the weight matrix column by column, contracts x with it, and adds
  the bias.  The kernel views x as an 8192 × 4096 matrix, cuts the product into 2048 × 1024 output tiles and the
  contracted axis into four tiles of 1024, and for each output tile starts from zero, adds the four partial products in
  order, and only then multiplies by the scale row and adds the bias row.

  On the extended reals the two agree when x and the scale are finite (the integer weights always are): the four partial
  sums regroup into the one sum over k (associativity and commutativity of +, which hold everywhere), and the factor
  scale[o] moves inside the sum (distributivity, which needs the finiteness the precondition gives).  Narrowing to
  sixteen bits on the way into the product changes no value on the extended reals, and an integer converted to a
  float is that integer.

  The modules: `Dequant` states the specification and proves the law; `Pieces`, `Payload`, `Blocks`, `HostPrefix`
  read what one grid point's body computes, entry by entry, from the arrays; `Invariant` follows an output tile's
  buffer through its four grid points; `Final` reads the output array after the region and the closing recast;
  `KernelValue` identifies the kernel's result with the specification; `RefSide` does the same for the reference;
  `Finite` reads finiteness out of the precondition.  The idealized kernel is the kernel's own text read on the
  extended reals (no operation was rewritten), so that conjunct is trivial; the three frames are the generated runs.
-/
import proofs.«178539_j71760313582388_2_alg».proof.Defs
import proofs.«178539_j71760313582388_2_alg».proof.Proof.Gen.Kernel
import proofs.«178539_j71760313582388_2_alg».proof.Proof.Gen.Kernel.Frame
import proofs.«178539_j71760313582388_2_alg».proof.Proof.Gen.KernelIdeal
import proofs.«178539_j71760313582388_2_alg».proof.Proof.Gen.KernelIdeal.Frame
import proofs.«178539_j71760313582388_2_alg».proof.Proof.Gen.ReferenceIdeal
import proofs.«178539_j71760313582388_2_alg».proof.Proof.Gen.ReferenceIdeal.Run
import proofs.«178539_j71760313582388_2_alg».proof.Proof.Gen.ReferenceIdeal.Read
import proofs.«178539_j71760313582388_2_alg».proof.Proof.Gen.Pre_finite_inputs
import proofs.«178539_j71760313582388_2_alg».proof.Proof.Dequant
import proofs.«178539_j71760313582388_2_alg».proof.Proof.Final
import proofs.«178539_j71760313582388_2_alg».proof.Proof.KernelValue
import proofs.«178539_j71760313582388_2_alg».proof.Proof.RefSide
import proofs.«178539_j71760313582388_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- On the extended reals, from memories that agree on the arguments and satisfy the precondition, both programs end
    with the specification of the arguments in their result array. -/
theorem algebraic : Cert.algebraic_KernelIdeal_ReferenceIdeal := by
  intro m ρ m' ρ' hpre hagree
  refine ⟨fun c => Cert.Dequant.G3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Final.run m ρ)
    obtain ⟨hx, hs, -⟩ := Cert.KernelIdeal.Finite.finite_of_pre m hpre c
    exact Cert.KernelIdeal.KernelValue.result_eq m c hx hs
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.ref_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
